-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8192 : Shape := ⟨2, ![256, 8192]⟩
abbrev S8192x8192 : Shape := ⟨2, ![8192, 8192]⟩
abbrev S_ : Shape := ⟨0, ![]⟩

class Facts : Prop where
  bcast_S_S256x8192 : S_.BroadcastsInDim S256x8192 (![] : Fin 0 → Fin S256x8192.rank)
  reducesTo_S256x8192_S_d0_1 : S256x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S256x8192 .f32) (main_arg1 : FVec F S256x8192 .f32) (main_arg2 : FVec F S8192x8192 .f32) : IVec S_ 1 :=
  let main_v0 : FVec F S256x8192 .f32 := Host.absf main_arg0
  let main_cst : FVec F S_ .f32 := constant S_ .f32 0x7F800000#32
  let main_v1 : FVec F S256x8192 .f32 := broadcastInDim S256x8192 ![] bcast_S_S256x8192 main_cst
  let main_v2 : IVec S256x8192 1 := cmpf .olt main_v0 main_v1
  let main_c : IVec S_ 1 := constantI S_ 1 1#1
  let main_v3 : IVec S_ 1 := (fun x v => Host.reduce IntOp.andi x v reducesTo_S256x8192_S_d0_1 h_S_) main_v2 main_c
  let main_v4 : FVec F S256x8192 .f32 := Host.absf main_arg1
  let main_cst_0 : FVec F S_ .f32 := constant S_ .f32 0x7F800000#32
  let main_v5 : FVec F S256x8192 .f32 := broadcastInDim S256x8192 ![] bcast_S_S256x8192 main_cst_0
  let main_v6 : IVec S256x8192 1 := cmpf .olt main_v4 main_v5
  let main_c_1 : IVec S_ 1 := constantI S_ 1 1#1
  let main_v7 : IVec S_ 1 := (fun x v => Host.reduce IntOp.andi x v reducesTo_S256x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  main_v13
-- ==== Kernel.lean ====
abbrev S256x8192 : Shape := ⟨2, ![256, 8192]⟩
abbrev S8192x8192 : Shape := ⟨2, ![8192, 8192]⟩
abbrev S_ : Shape := ⟨0, ![]⟩
abbrev S256 : Shape := ⟨1, ![256]⟩
abbrev S256x1 : Shape := ⟨2, ![256, 1]⟩
abbrev S4x1x256 : Shape := ⟨3, ![4, 1, 256]⟩
abbrev S2048x512 : Shape := ⟨2, ![2048, 512]⟩
abbrev S256x2048 : Shape := ⟨2, ![256, 2048]⟩
abbrev S1x1x256 : Shape := ⟨3, ![1, 1, 256]⟩
abbrev S256x512 : Shape := ⟨2, ![256, 512]⟩
abbrev S4x256 : Shape := ⟨2, ![4, 256]⟩

abbrev nBuf : Space → Nat
  | .hbm => 21
  | .vmem => 10
  | .smem => 0
  | _ => 0

abbrev bufTy : (tb : Table) → Fin (tcTables nBuf tb) → BufTy
  | .hbm, ⟨0, _⟩ => ⟨S256x8192, .f32⟩
  | .hbm, ⟨1, _⟩ => ⟨S256x8192, .f32⟩
  | .hbm, ⟨2, _⟩ => ⟨S8192x8192, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S256x8192, .f32⟩
  | .hbm, ⟨7, _⟩ => ⟨S256x8192, .f32⟩
  | .hbm, ⟨8, _⟩ => ⟨S256x8192, .f32⟩
  | .hbm, ⟨9, _⟩ => ⟨S_, .f32⟩
  | .hbm, ⟨10, _⟩ => ⟨S256x8192, .f32⟩
  | .hbm, ⟨11, _⟩ => ⟨S256x8192, .f32⟩
  | .hbm, ⟨12, _⟩ => ⟨S256x8192, .f32⟩
  | .hbm, ⟨13, _⟩ => ⟨S4x1x256, .f32⟩
  | .hbm, ⟨14, _⟩ => ⟨S4x256, .f32⟩
  | .hbm, ⟨15, _⟩ => ⟨S_, .f32⟩
  | .hbm, ⟨16, _⟩ => ⟨S256, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S256x8192, .f32⟩
  | .local _ .vmem, ⟨1, _⟩ => ⟨S2048x512, .f32⟩
  | .local _ .vmem, ⟨2, _⟩ => ⟨S2048x512, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x1x256, .f32⟩
  | .local _ .vmem, ⟨8, _⟩ => ⟨S1x1x256, .f32⟩
  | .local _ .vmem, ⟨9, _⟩ => ⟨S256x2048, .f32⟩
  | _, _ => ⟨S256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  ![0, v5.toNat]
def k0_cond2 (i : grid0.Coords) : BitVec 1 :=
  let arg1 : BitVec 32 := BitVec.ofNat 32 (i 1).val
  let c15_i32 : BitVec 32 := 15#32
  let v17 : BitVec 1 := Scalar.cmpi .eq arg1 c15_i32
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S256x8192_S256_d1 : S256x8192.ReducesTo [1] S256
  h_S_ : 0 < S_.numel
  bcast_S256_S256x1_0 : S256.BroadcastsInDim S256x1 (![0] : Fin 1 → Fin S256x1.rank)
  bcast_S256x1_S256x8192_0_1 : S256x1.BroadcastsInDim S256x8192 (![0, 1] : Fin 2 → Fin S256x8192.rank)
  bcast_S_S256x8192 : S_.BroadcastsInDim S256x8192 (![] : Fin 0 → Fin S256x8192.rank)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  h_S256x512 : 0 < S256x512.numel
  shapeCasts_S256x512_S256x512 : S256x512.ShapeCasts S256x512
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  reduces_S256x2048_S256 : S256x2048.Reduces [1] S256
  shapeCasts_S256_S1x1x256 : S256.ShapeCasts S1x1x256
  inb_S1x1x256_S1x1x256_0_0_0 : ∀ a, (![0, 0, 0] : Fin 3 → Nat) a + S1x1x256.size a ≤ S1x1x256.size a
  h_S1x1x256 : 0 < S1x1x256.numel
  shapeCasts_S4x1x256_S4x256 : S4x1x256.ShapeCasts S4x256
  reducesTo_S4x256_S256_d0 : S4x256.ReducesTo [0] S256
  reducesTo_S256_S_d0 : S256.ReducesTo [0] S_
  dot_S256x512_S2048x512_S256x2048_1_1_0_0_n_n_wf : DotDims.WF S256x512 S2048x512 S256x2048 [1] [1] [0] [0] [] []
  hrank0 : 0 < grid0.rank
  k0_mult1_dvd : ∀ i : grid0.Coords, 512 ∣ (k0_mult1 i).toNat
  k0_off1_inb : ∀ i : grid0.Coords, ∀ a, (k0_off1 i) a + S256x512.size a ≤ S256x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S256x8192.size a
  hwx0_0 : ∀ i : grid0.Coords, EltTy.bits .f32 = 32 ∨ (Rect.block (s := S256x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x8192.size a
  hwx0_1 : ∀ i : grid0.Coords, EltTy.bits .f32 = 32 ∨ (Rect.block (s := S8192x8192) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S256x8192.size a
  hwx0_2 : ∀ i : grid0.Coords, EltTy.bits .f32 = 32 ∨ (Rect.block (s := S256x8192) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S256x8192.size a
  hwx0_3 : ∀ i : grid0.Coords, EltTy.bits .f32 = 32 ∨ (Rect.block (s := S256x8192) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S4x1x256.size a
  hwx0_4 : ∀ i : grid0.Coords, EltTy.bits .f32 = 32 ∨ (Rect.block (s := S4x1x256) S1x1x256.size (cc0_transform_4 i) (hinb0_4 i)).WholeWords (EltTy.packing .f32)

variable [Facts₀]

def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf

abbrev win0_0 : Pipeline.Window sig grid0 :=
  Pipeline.Window.ofSpec (Memref.whole main_v7) S256x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S256x8192 : Shape := ⟨2, ![256, 8192]⟩
abbrev S8192x8192 : Shape := ⟨2, ![8192, 8192]⟩
abbrev S_ : Shape := ⟨0, ![]⟩
abbrev S256 : Shape := ⟨1, ![256]⟩
abbrev S256x1 : Shape := ⟨2, ![256, 1]⟩

abbrev nBuf : Space → Nat
  | .hbm => 32
  | .vmem => 0
  | .smem => 0
  | _ => 0

abbrev bufTy : (tb : Table) → Fin (tcTables nBuf tb) → BufTy
  | .hbm, ⟨0, _⟩ => ⟨S256x8192, .f32⟩
  | .hbm, ⟨1, _⟩ => ⟨S256x8192, .f32⟩
  | .hbm, ⟨2, _⟩ => ⟨S8192x8192, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S256x8192, .f32⟩
  | .hbm, ⟨7, _⟩ => ⟨S256x8192, .f32⟩
  | .hbm, ⟨8, _⟩ => ⟨S256x8192, .f32⟩
  | .hbm, ⟨9, _⟩ => ⟨S_, .f32⟩
  | .hbm, ⟨10, _⟩ => ⟨S256x8192, .f32⟩
  | .hbm, ⟨11, _⟩ => ⟨S256x8192, .f32⟩
  | .hbm, ⟨12, _⟩ => ⟨S256x8192, .f32⟩
  | .hbm, ⟨13, _⟩ => ⟨S8192x8192, .f32⟩
  | .hbm, ⟨14, _⟩ => ⟨S256x8192, .f32⟩
  | .hbm, ⟨15, _⟩ => ⟨S256x8192, .f32⟩
  | .hbm, ⟨16, _⟩ => ⟨S_, .f32⟩
  | .hbm, ⟨17, _⟩ => ⟨S256x8192, .f32⟩
  | .hbm, ⟨18, _⟩ => ⟨S256x8192, .f32⟩
  | .hbm, ⟨19, _⟩ => ⟨S256x8192, .f32⟩
  | .hbm, ⟨20, _⟩ => ⟨S256x8192, .f32⟩
  | .hbm, ⟨21, _⟩ => ⟨S_, .f32⟩
  | .hbm, ⟨22, _⟩ => ⟨S256x8192, .f32⟩
  | .hbm, ⟨23, _⟩ => ⟨S256x8192, .f32⟩
  | .hbm, ⟨24, _⟩ => ⟨S256x8192, .f32⟩
  | .hbm, ⟨25, _⟩ => ⟨S256x8192, .f32⟩
  | .hbm, ⟨26, _⟩ => ⟨S_, .f32⟩
  | .hbm, ⟨27, _⟩ => ⟨S256, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  reducesTo_S256x8192_S256_d1 : S256x8192.ReducesTo [1] S256
  h_S_ : 0 < S_.numel
  bcast_S256_S256x1_0 : S256.BroadcastsInDim S256x1 (![0] : Fin 1 → Fin S256x1.rank)
  bcast_S256x1_S256x8192_0_1 : S256x1.BroadcastsInDim S256x8192 (![0, 1] : Fin 2 → Fin S256x8192.rank)
  bcast_S_S256x8192 : S_.BroadcastsInDim S256x8192 (![] : Fin 0 → Fin S256x8192.rank)
  transposes_S8192x8192_S8192x8192_1_0 : S8192x8192.Transposes [1, 0] S8192x8192
  reducesTo_S256_S_d0 : S256.ReducesTo [0] S_
  dot_S256x8192_S8192x8192_S256x8192_1_0_0_1_n_n_wf : DotDims.WF S256x8192 S8192x8192 S256x8192 [1] [0] [0] [1] [] []

variable [Facts₀]

def dot_S256x8192_S8192x8192_S256x8192_1_0_0_1_n_n : DotDims S256x8192 S8192x8192 S256x8192 where
  lhsContracting := [1]
  rhsContracting := [0]
  lhsNonContracting := [0]
  rhsNonContracting := [1]
  lhsBatch := []
  rhsBatch := []
  wf := dot_S256x8192_S8192x8192_S256x8192_1_0_0_1_n_n_wf

class Facts : Prop extends Facts₀ where

variable [Facts]
-- ==== Proof.Pieces.lean ====
/-
  What one grid point leaves behind, as pure functions of the blocks it loads.

  The contraction axis (8192 columns) is walked in 16 steps of 512 columns.  At every step the body adds to the
  running block (256 rows by 2048 classes) the product of a 256-by-512 column slice of the left matrix with the
  transposed 2048-by-512 block of the right matrix.  At the first step the running block is first set to zero; at
  the last step the per-class loss terms are formed from the finished block and summed over the 2048 classes into
  one row of 256 numbers.  Each of the three kinds of step is stated here for any float instance.
-/
import proofs.«100155_j16621523436027_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- The 256-by-512 column slice of the left matrix that the step at grid point `i` multiplies: columns
    `512·k … 512·k + 511` for the step number `k` (the point's second coordinate). -/
abbrev colSlice (i : grid0.Coords) (x0 : Vec F S256x8192 .f32) : Vec F S256x512 .f32 :=
  View.ld x0 (Rect.unit (s := S256x8192) (k0_off1 i) S256x512.size (k0_off1_inb i))

/-- One accumulation step: the running block plus the slice's product with the right block. -/
abbrev step (i : grid0.Coords) (x0 : Vec F S256x8192 .f32) (x1 : Vec F S2048x512 .f32) (acc : Vec F S256x2048 .f32) :
    Vec F S256x2048 .f32 :=
  k0_pay2 (colSlice i x0) x1 acc

/-- A middle step leaves the running block one step further. -/
theorem scratch_middle (c : Dev nD) (i : grid0.Coords) (arg2 : Memref sig .tc .vmem S256x8192 .f32) (harg2 : arg2.IsWhole) (arg3 : Memref sig .tc .vmem S2048x512 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x1x256 .f32) (harg6 : arg6.IsWhole) (arg7 : Memref sig .tc .vmem S256x2048 .f32) (harg7 : arg7.IsWhole) (hc0 : ¬cond0_0 i) (hc1 : ¬cond0_1 i)
    (x0 : Vec F S256x8192 .f32) (x1 : Vec F S2048x512 .f32) (x2 : Vec F S256x2048 .f32) (x3 : Vec F S256x2048 .f32) (xs0 : Vec F S256x2048 .f32) :
    sout0_B_0 c i arg2 harg2 arg3 harg3 arg4 harg4 arg5 harg5 arg6 harg6 arg7 harg7 hc0 hc1 x0 x1 x2 x3 xs0 = step i x0 x1 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero (S := S256x2048) zeros2]
  simp only [View.readAt_eq_ld, harg2.read_unread, harg3.read_unread, harg7.read_unread,
    View.ld_unit_zero (S := S2048x512) zeros2, View.ld_unit_zero (S := S256x2048) zeros2]

/-- The first step starts from the zero block. -/
theorem scratch_first (c : Dev nD) (i : grid0.Coords) (arg2 : Memref sig .tc .vmem S256x8192 .f32) (harg2 : arg2.IsWhole) (arg3 : Memref sig .tc .vmem S2048x512 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x1x256 .f32) (harg6 : arg6.IsWhole) (arg7 : Memref sig .tc .vmem S256x2048 .f32) (harg7 : arg7.IsWhole) (hc0 : cond0_0 i) (hc1 : ¬cond0_1 i)
    (x0 : Vec F S256x8192 .f32) (x1 : Vec F S2048x512 .f32) (x2 : Vec F S256x2048 .f32) (x3 : Vec F S256x2048 .f32) :
    sout0_A_0 c i arg2 harg2 arg3 harg3 arg4 harg4 arg5 harg5 arg6 harg6 arg7 harg7 hc0 hc1 x0 x1 x2 x3 = step i x0 x1 k0_pay1 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S256x2048) zeros2, View.readCov_unit_zero (S := S256x2048) _ zeros2]
  simp only [View.readAt_eq_ld, harg2.read_unread, harg3.read_unread, View.ld_unit_zero (S := S2048x512) zeros2]
  rfl

/-- The last step also leaves the running block one step further … -/
theorem scratch_last (c : Dev nD) (i : grid0.Coords) (arg2 : Memref sig .tc .vmem S256x8192 .f32) (harg2 : arg2.IsWhole) (arg3 : Memref sig .tc .vmem S2048x512 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x1x256 .f32) (harg6 : arg6.IsWhole) (arg7 : Memref sig .tc .vmem S256x2048 .f32) (harg7 : arg7.IsWhole) (hc0 : ¬cond0_0 i) (hc1 : cond0_1 i)
    (x0 : Vec F S256x8192 .f32) (x1 : Vec F S2048x512 .f32) (x2 : Vec F S256x2048 .f32) (x3 : Vec F S256x2048 .f32) (xs0 : Vec F S256x2048 .f32) :
    sout0_C_0 c i arg2 harg2 arg3 harg3 arg4 harg4 arg5 harg5 arg6 harg6 arg7 harg7 hc0 hc1 x0 x1 x2 x3 xs0 = step i x0 x1 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S256x2048) zeros2]
  simp only [View.readAt_eq_ld, harg2.read_unread, harg3.read_unread, harg7.read_unread,
    View.ld_unit_zero (S := S2048x512) zeros2, View.ld_unit_zero (S := S256x2048) zeros2]
  rfl

/-- … and writes, into the output block, the row of class-summed loss terms formed from the finished running
    block, the block of exponentials (read twice) and the block of targets. -/
theorem out_last (c : Dev nD) (i : grid0.Coords) (arg2 : Memref sig .tc .vmem S256x8192 .f32) (harg2 : arg2.IsWhole) (arg3 : Memref sig .tc .vmem S2048x512 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x1x256 .f32) (harg6 : arg6.IsWhole) (arg7 : Memref sig .tc .vmem S256x2048 .f32) (harg7 : arg7.IsWhole) (hc0 : ¬cond0_0 i) (hc1 : cond0_1 i)
    (x0 : Vec F S256x8192 .f32) (x1 : Vec F S2048x512 .f32) (x2 : Vec F S256x2048 .f32) (x3 : Vec F S256x2048 .f32) (xs0 : Vec F S256x2048 .f32) :
    out0_C_4 c i arg2 harg2 arg3 harg3 arg4 harg4 arg5 harg5 arg6 harg6 arg7 harg7 hc0 hc1 x0 x1 x2 x3 xs0 = k0_pay3 (step i x0 x1 xs0) x2 x2 x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1x1x256) zeros3, View.readCov_unit_zero (S := S256x2048) _ zeros2]
  simp only [View.readAt_eq_ld, harg2.read_unread, harg3.read_unread, harg4.read_unread, harg5.read_unread, harg7.read_unread,
    View.ld_unit_zero (S := S2048x512) zeros2, View.ld_unit_zero (S := S256x2048) zeros2]
  rfl

end Cert.KernelIdeal.Pieces

end
-- ==== Proof.LibSumIdx.lean ====
/-
  General lemmas on finite sums over index sets built from coordinates.

  * a rank-3 index set is the product of its three coordinate ranges, so a sum over it is the
    triple sum over the coordinates (the rank-3 companion of the rank-2 statement);
  * a sum over `Fin (m * n)` splits into `m` consecutive tiles of `n` terms each.
-/
import Idealize.ShloMosaic.Lib.ValueIdx

noncomputable section

open scoped BigOperators

namespace Cert.LibSumIdx

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The `r`-th element of the `k`-th tile of width `n`. -/
def tile {m n : Nat} (k : Fin m) (r : Fin n) : Fin (m * n) :=
  ⟨k.val * n + r.val, by
    have hk := k.isLt; have hr := r.isLt
    calc k.val * n + r.val < k.val * n + n := by omega
      _ = (k.val + 1) * n := by ring
      _ ≤ m * n := Nat.mul_le_mul_right n hk⟩

/-- A sum over `Fin (m * n)` is the sum over the `m` tiles of the sums over each tile's `n` elements. -/
theorem sum_tiles {M : Type*} [AddCommMonoid M] {m n : Nat} (f : Fin (m * n) → M) :
    ∑ i, f i = ∑ k : Fin m, ∑ r : Fin n, f (tile k r) := by
  rw [← Equiv.sum_comp (finProdFinEquiv (m := m) (n := n)) f, Fintype.sum_prod_type]
  refine Finset.sum_congr rfl fun k _ => Finset.sum_congr rfl fun r _ => congrArg f (Fin.ext ?_)
  show r.val + n * k.val = k.val * n + r.val
  rw [Nat.mul_comm, Nat.add_comm]

end Cert.LibSumIdx

end
-- ==== Proof.Spec.lean ====
/-
  The loss as mathematics over the extended reals, and the two regroupings of sums that relate a tiled
  evaluation of it to the plain one.

  Data: matrices A, E, T with 256 rows (samples) and 8192 columns (classes), and a square matrix s of order 8192.
  For sample b and class i put

      dot b i  = ∑_j A(b, j) · s(i, j)                                      (row b of A against row i of s)
      term b i = (−T(b, i)) · log( E(b, i) / (dot b i + E(b, i) + ε) + ε )
      rowLoss b = ∑_i term b i .

  A tiled evaluation walks the contraction index j in 16 steps of 512 columns and the class index i in 4 tiles of
  2048 classes.  Both regroupings are instances of one fact: a sum over m·n consecutive indices is the sum over the
  m tiles of the sums over each tile's n indices.  Sums of extended reals form a commutative monoid, so no
  finiteness is needed anywhere.
-/
import Idealize.ShloMosaic.PureOps.Ideal
import Idealize.ShloMosaic.Lib.ValueIdx
import proofs.«100155_j16621523436027_2_alg».proof.Proof.LibSumIdx

noncomputable section

open scoped BigOperators

namespace Cert.Loss

open Idealize.ShloMosaic Idealize.ShloMosaic.ValueIdx

/-- A 256-by-8192 matrix of extended reals. -/
abbrev Mat := (⟨2, ![256, 8192]⟩ : Shape).Idx → EReal
/-- A square matrix of order 8192. -/
abbrev Sq := (⟨2, ![8192, 8192]⟩ : Shape).Idx → EReal

/-- Column `q` of contraction step `k`: number `512·k + q` (reduced mod 8192 so that it is total in `k`). -/
def colAt (k : ℕ) (q : Fin 512) : Fin 8192 := ⟨(k * 512 + q.val) % 8192, Nat.mod_lt _ (by norm_num)⟩
/-- Class `r` of class tile `n`: number `2048·n + r` (reduced mod 8192 so that it is total in `n`). -/
def clsAt (n : ℕ) (r : Fin 2048) : Fin 8192 := ⟨(n * 2048 + r.val) % 8192, Nat.mod_lt _ (by norm_num)⟩

theorem colAt_val {k : ℕ} (hk : k < 16) (q : Fin 512) : (colAt k q).val = k * 512 + q.val := by
  have := q.isLt; show (k * 512 + q.val) % 8192 = _; omega
theorem clsAt_val {n : ℕ} (hn : n < 4) (r : Fin 2048) : (clsAt n r).val = n * 2048 + r.val := by
  have := r.isLt; show (n * 2048 + r.val) % 8192 = _; omega

/-- Row `b` of `A` against row `i` of `s`. -/
def dot (A : Mat) (s : Sq) (b : Fin 256) (i : Fin 8192) : EReal := ∑ j : Fin 8192, A (ix2 b j) * s (ix2 i j)

/-- The part of `dot b (class r of tile n)` contributed by contraction step `k`. -/
def stepDot (A : Mat) (s : Sq) (n k : ℕ) (b : Fin 256) (r : Fin 2048) : EReal :=
  ∑ q : Fin 512, A (ix2 b (colAt k q)) * s (ix2 (clsAt n r) (colAt k q))

/-- The sixteen steps' contributions add up to the whole contraction. -/
theorem sum_stepDot (A : Mat) (s : Sq) (n : ℕ) (b : Fin 256) (r : Fin 2048) :
    ∑ k ∈ Finset.range 16, stepDot A s n k b r = dot A s b (clsAt n r) := by
  unfold dot
  rw [Finset.sum_range, LibSumIdx.sum_tiles (m := 16) (n := 512) (fun j : Fin 8192 => A (ix2 b j) * s (ix2 (clsAt n r) j))]
  refine Finset.sum_congr rfl fun k _ => ?_
  unfold stepDot
  refine Finset.sum_congr rfl fun q _ => ?_
  have e : colAt k.val q = LibSumIdx.tile k q := Fin.ext (colAt_val k.isLt q)
  rw [e]

/-- The loss term of sample `b` and class `i`. -/
def term (ε : EReal) (A E T : Mat) (s : Sq) (b : Fin 256) (i : Fin 8192) : EReal :=
  (-T (ix2 b i)) * Ideal.log (Ideal.div (E (ix2 b i)) (dot A s b i + E (ix2 b i) + ε) + ε)

/-- The loss of sample `b`: its terms summed over all classes. -/
def rowLoss (ε : EReal) (A E T : Mat) (s : Sq) (b : Fin 256) : EReal := ∑ i : Fin 8192, term ε A E T s b i

/-- Summing class tile by class tile gives the same loss. -/
theorem rowLoss_tiles (ε : EReal) (A E T : Mat) (s : Sq) (b : Fin 256) :
    ∑ n : Fin 4, ∑ r : Fin 2048, term ε A E T s b (clsAt n.val r) = rowLoss ε A E T s b := by
  unfold rowLoss
  rw [LibSumIdx.sum_tiles (m := 4) (n := 2048) (fun i : Fin 8192 => term ε A E T s b i)]
  refine Finset.sum_congr rfl fun n _ => Finset.sum_congr rfl fun r _ => ?_
  have e : clsAt n.val r = LibSumIdx.tile n r := Fin.ext (clsAt_val n.isLt r)
  rw [e]

end Cert.Loss

end
-- ==== Proof.Blocks.lean ====
/-
  The blocks a grid point loads, read at an entry of the arrays they are cut from.

  Grid point number t (0 ≤ t < 64) is class tile n = t / 16 and contraction step k = t % 16.  At that point
    * the left matrix is resident whole, and the body slices from it columns 512·k … 512·k + 511;
    * the right matrix's block holds rows 2048·n … (classes of tile n) and columns 512·k … (the step's columns);
    * the blocks of exponentials and of targets hold all 256 rows and the columns 2048·n … of tile n.
-/
import proofs.«100155_j16621523436027_2_alg».proof.Proof.Pieces
import proofs.«100155_j16621523436027_2_alg».proof.Proof.Spec

noncomputable section

open Idealize.ShloMosaic Idealize.ShloMosaic.TcCoe Idealize.SL.Sem

namespace Cert.KernelIdeal.Blocks

open Cert.KernelIdeal Cert.KernelIdeal.Gen Idealize.ShloMosaic.ValueIdx Cert.Loss

variable {F : FTy → Type} [FloatOps F]
variable (m : (ℓ : Loc nD τ sig) → Buf (Elt F) ℓ)

theorem lt64 (t : Fin cfg0.N) : t.val < 64 := lt_of_lt_of_eq t.isLt (show cfg0.N = 64 from N_0)

/-- The left matrix's window never moves. -/
theorem index_left : ∀ t : Fin cfg0.N, win0_0.index t 0 = 0 ∧ win0_0.index t 1 = 0 :=
  (by decide +kernel : ∀ t : Fin grid0.N, win0_0.index t 0 = 0 ∧ win0_0.index t 1 = 0)
/-- The right matrix's window is at block row n, block column k. -/
theorem index_right : ∀ t : Fin cfg0.N, win0_1.index t 0 = t.val / 16 ∧ win0_1.index t 1 = t.val % 16 :=
  (by decide +kernel : ∀ t : Fin grid0.N, win0_1.index t 0 = t.val / 16 ∧ win0_1.index t 1 = t.val % 16)
/-- The exponentials' window is at block column n. -/
theorem index_exp : ∀ t : Fin cfg0.N, win0_2.index t 0 = 0 ∧ win0_2.index t 1 = t.val / 16 :=
  (by decide +kernel : ∀ t : Fin grid0.N, win0_2.index t 0 = 0 ∧ win0_2.index t 1 = t.val / 16)
/-- The targets' window is at block column n. -/
theorem index_tgt : ∀ t : Fin cfg0.N, win0_3.index t 0 = 0 ∧ win0_3.index t 1 = t.val / 16 :=
  (by decide +kernel : ∀ t : Fin grid0.N, win0_3.index t 0 = 0 ∧ win0_3.index t 1 = t.val / 16)
/-- The slice taken from the resident left matrix starts at column 512·k. -/
theorem slice_offset : ∀ t : Fin cfg0.N, k0_off1 (grid0.coords t) 0 = 0 ∧ k0_off1 (grid0.coords t) 1 = t.val % 16 * 512 :=
  (by decide +kernel : ∀ t : Fin grid0.N, k0_off1 (grid0.coords t) 0 = 0 ∧ k0_off1 (grid0.coords t) 1 = t.val % 16 * 512)

/-- The step's slice of the left matrix, at (b, q): the matrix at (b, column q of step k). -/
theorem slice_apply (c : Dev nD) (t : Fin cfg0.N) (b : Fin 256) (q : Fin 512) :
    Pieces.colSlice (grid0.coords t) (iblk m c 0 t) (ix2 b q) = V m c main_v7 (ix2 b (colAt (t.val % 16) q)) := by
  have hi := index_left t
  have ho := slice_offset t
  have hk : t.val % 16 < 16 := Nat.mod_lt _ (by norm_num)
  unfold Pieces.colSlice View.ld iblk
  rw [View.read_apply]
  show V m c main_v7 _ = V m c main_v7 _
  refine congrArg (V m c main_v7) (funext fun a => Fin.ext ?_)
  match a with
  | ⟨0, _⟩ =>
    show win0_0.index t 0 * 256 + 1 * (k0_off1 (grid0.coords t) 0 + 1 * b.val) = b.val
    rw [hi.1, ho.1]; omega
  | ⟨1, _⟩ =>
    show win0_0.index t 1 * 8192 + 1 * (k0_off1 (grid0.coords t) 1 + 1 * q.val) = (colAt (t.val % 16) q).val
    rw [hi.2, ho.2, colAt_val hk]; omega

/-- The right matrix's block, at (r, q): the matrix at (class r of tile n, column q of step k). -/
theorem right_apply (c : Dev nD) (t : Fin cfg0.N) (r : Fin 2048) (q : Fin 512) :
    (iblk m c 1 t : Vec F S2048x512 .f32) (ix2 r q) = V m c main_arg2 (ix2 (clsAt (t.val / 16) r) (colAt (t.val % 16) q)) := by
  have hi := index_right t
  have hN := lt64 t
  have hk : t.val % 16 < 16 := Nat.mod_lt _ (by norm_num)
  have hn : t.val / 16 < 4 := by omega
  unfold iblk
  rw [View.read_apply]
  show V m c main_arg2 _ = V m c main_arg2 _
  refine congrArg (V m c main_arg2) (funext fun a => Fin.ext ?_)
  match a with
  | ⟨0, _⟩ =>
    show win0_1.index t 0 * 2048 + 1 * r.val = (clsAt (t.val / 16) r).val
    rw [hi.1, clsAt_val hn]; omega
  | ⟨1, _⟩ =>
    show win0_1.index t 1 * 512 + 1 * q.val = (colAt (t.val % 16) q).val
    rw [hi.2, colAt_val hk]; omega

/-- The block of exponentials, at (b, r): the array at (b, class r of tile n). -/
theorem exp_apply (c : Dev nD) (t : Fin cfg0.N) (b : Fin 256) (r : Fin 2048) :
    (iblk m c 2 t : Vec F S256x2048 .f32) (ix2 b r) = V m c main_v4 (ix2 b (clsAt (t.val / 16) r)) := by
  have hi := index_exp t
  have hN := lt64 t
  have hn : t.val / 16 < 4 := by omega
  unfold iblk
  rw [View.read_apply]
  show V m c main_v4 _ = V m c main_v4 _
  refine congrArg (V m c main_v4) (funext fun a => Fin.ext ?_)
  match a with
  | ⟨0, _⟩ =>
    show win0_2.index t 0 * 256 + 1 * b.val = b.val
    rw [hi.1]; omega
  | ⟨1, _⟩ =>
    show win0_2.index t 1 * 2048 + 1 * r.val = (clsAt (t.val / 16) r).val
    rw [hi.2, clsAt_val hn]; omega

/-- The block of targets, at (b, r): the array at (b, class r of tile n). -/
theorem tgt_apply (c : Dev nD) (t : Fin cfg0.N) (b : Fin 256) (r : Fin 2048) :
    (iblk m c 3 t : Vec F S256x2048 .f32) (ix2 b r) = V m c main_arg1 (ix2 b (clsAt (t.val / 16) r)) := by
  have hi := index_tgt t
  have hN := lt64 t
  have hn : t.val / 16 < 4 := by omega
  unfold iblk
  rw [View.read_apply]
  show V m c main_arg1 _ = V m c main_arg1 _
  refine congrArg (V m c main_arg1) (funext fun a => Fin.ext ?_)
  match a with
  | ⟨0, _⟩ =>
    show win0_3.index t 0 * 256 + 1 * b.val = b.val
    rw [hi.1]; omega
  | ⟨1, _⟩ =>
    show win0_3.index t 1 * 2048 + 1 * r.val = (clsAt (t.val / 16) r).val
    rw [hi.2, clsAt_val hn]; omega

end Cert.KernelIdeal.Blocks

end
-- ==== Proof.LibMatmulNT.lean ====
/-
  A matrix product against a transposed right operand, read at an index, over the extended reals.

  For dimension numbers that contract the second axis of both operands (left operand M×K, right operand N×K,
  no batch axis) the product accumulated into the zero matrix is, at row r and column c, the sum over k < K of
  lhs(r, k) · rhs(c, k).  The contraction index of the dimension numbers is a rank-1 index; the sum is
  re-indexed through its one coordinate.  The record of dimension numbers is a parameter: its four coordinate
  facts are hypotheses, each closed by unfolding at a literal record.
-/
import Idealize.ShloMosaic.PureOps.Ideal.Laws
import Idealize.ShloMosaic.Lib.ValueIdx

noncomputable section

namespace LibMatmulNT

open Idealize.ShloMosaic Idealize.ShloMosaic.ValueIdx

/-- The sum a product against a transposed right operand is, with the contraction index a plain number below K. -/
theorem contr_sum {M K N : Nat} (D : DotDims ⟨2, ![M, K]⟩ ⟨2, ![N, K]⟩ ⟨2, ![M, N]⟩)
    (hr : D.contr.rank = 1) (hs : D.contr.size ⟨0, by omega⟩ = K)
    (hlc : D.lhsContracting = [1]) (hrc : D.rhsContracting = [1])
    (hl0 : ∀ (j : (⟨2, ![M, N]⟩ : Shape).Idx) (k : D.contr.Idx), (D.lhsIdx j k 0).val = (j 0).val)
    (hr0 : ∀ (j : (⟨2, ![M, N]⟩ : Shape).Idx) (k : D.contr.Idx), (D.rhsIdx j k 0).val = (j 1).val)
    (lhs : (⟨2, ![M, K]⟩ : Shape).Idx → EReal) (rhs : (⟨2, ![N, K]⟩ : Shape).Idx → EReal) (r : Fin M) (c : Fin N) :
    (∑ k : D.contr.Idx, lhs (D.lhsIdx (ix2 r c) k) * rhs (D.rhsIdx (ix2 r c) k))
      = ∑ k : Fin K, lhs (ix2 r k) * rhs (ix2 c k) := by
  rw [← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k :=
    funext fun a => Fin.ext (by
      match a with
      | ⟨0, _⟩ => exact hl0 _ _
      | ⟨1, _⟩ => exact (D.lhsIdx_val_of_single hlc (ix2 r c) _).trans hk)
  have er : D.rhsIdx (ix2 r c) ((contrEquiv1 D K hr hs).symm k) = ix2 c k :=
    funext fun a => Fin.ext (by
      match a with
      | ⟨0, _⟩ => exact hr0 _ _
      | ⟨1, _⟩ => exact (D.rhsIdx_val_of_single hrc (ix2 r c) _).trans hk)
  rw [el, er]

/-- A product against a transposed right operand, accumulated into the zero matrix, read at an index. -/
theorem matmul_zero_apply {M K N : Nat} (D : DotDims ⟨2, ![M, K]⟩ ⟨2, ![N, K]⟩ ⟨2, ![M, N]⟩)
    (hr : D.contr.rank = 1) (hs : D.contr.size ⟨0, by omega⟩ = K)
    (hlc : D.lhsContracting = [1]) (hrc : D.rhsContracting = [1])
    (hl0 : ∀ (j : (⟨2, ![M, N]⟩ : Shape).Idx) (k : D.contr.Idx), (D.lhsIdx j k 0).val = (j 0).val)
    (hr0 : ∀ (j : (⟨2, ![M, N]⟩ : Shape).Idx) (k : D.contr.Idx), (D.rhsIdx j k 0).val = (j 1).val)
    (prec : Option ContractPrecision)
    (lhs : FVec Ideal ⟨2, ![M, K]⟩ .f32) (rhs : FVec Ideal ⟨2, ![N, K]⟩ .f32) (r : Fin M) (c : Fin N) :
    FloatOps.matmul D prec lhs rhs (constant (F := Ideal) ⟨2, ![M, N]⟩ .f32 0x00000000#32) (ix2 r c)
      = ∑ k : Fin K, lhs (ix2 r k) * rhs (ix2 c k) := by
  rw [Ideal.matmul_constant_zero_apply]
  exact contr_sum D hr hs hlc hrc hl0 hr0 lhs rhs r c

end LibMatmulNT

end
-- ==== Proof.Payload.lean ====
/-
  The step payloads read at one entry, over the extended reals.

  * the zero block is 0 at every entry;
  * one accumulation step adds, at (b, r), the sum over the 512 slice columns q of slice(b, q) · block(r, q) —
    the right block enters transposed, and the change of float format before the product is the identity;
  * the closing step's row of 256 numbers is, at sample b, the sum over the tile's 2048 classes r of
      (0 − T(b, r)) · log( E(b, r) / (acc(b, r) + E(b, r) + ε) + ε ).
-/
import proofs.«100155_j16621523436027_2_alg».proof.Proof.Gen.KernelIdeal.Skeleton
import proofs.«100155_j16621523436027_2_alg».proof.Proof.LibMatmulNT
import Idealize.ShloMosaic.PureOps.Ideal.Laws
import Idealize.ShloMosaic.Lib.ValueIdx
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-- The small positive constant added to the denominator and inside the logarithm. -/
abbrev eps : EReal := Ideal.ofBits .f32 0x358637BD#32

/-- The zero block is zero everywhere. -/
theorem zero_block_apply (j : S256x2048.Idx) : k0_pay1 (F := Ideal) j = 0 := by
  unfold k0_pay1
  rw [shapeCast_self]
  exact Ideal.ofBits_zero_f32

local notation "D" => dot_S256x512_S2048x512_S256x2048_1_1_0_0_n_n

theorem lhs_row (j : S256x2048.Idx) (k : (D).contr.Idx) : ((D).lhsIdx j k 0).val = (j 0).val := by
  unfold DotDims.lhsIdx
  rw [dif_neg (show ¬(0 : Fin S256x512.rank) ∈ (D).lhsBatch by decide),
    dif_pos (show (0 : Fin S256x512.rank) ∈ (D).lhsNonContracting by decide)]
  rfl

theorem rhs_row (j : S256x2048.Idx) (k : (D).contr.Idx) : ((D).rhsIdx j k 0).val = (j 1).val := by
  unfold DotDims.rhsIdx
  rw [dif_neg (show ¬(0 : Fin S2048x512.rank) ∈ (D).rhsBatch by decide),
    dif_pos (show (0 : Fin S2048x512.rank) ∈ (D).rhsNonContracting by decide)]
  rfl

/-- One accumulation step at an entry. -/
theorem step_apply (v6 : Vec Ideal S256x512 .f32) (v9 : Vec Ideal S2048x512 .f32) (v11 : Vec Ideal S256x2048 .f32)
    (b : Fin 256) (r : Fin 2048) :
    k0_pay2 v6 v9 v11 (ix2 b r) = v11 (ix2 b r) + ∑ q : Fin 512, v6 (ix2 b q) * v9 (ix2 r q) := by
  unfold k0_pay2
  rw [shapeCast_self, shapeCast_self]
  show v11 (ix2 b r) + _ = _
  refine congrArg (v11 (ix2 b r) + ·) ((Ideal.matmul_constant_zero_apply (D) none _ _ (ix2 b r)).trans ?_)
  exact LibMatmulNT.contr_sum (D) rfl rfl rfl rfl lhs_row rhs_row _ _ b r

/-- The closing step's row of class-summed loss terms at a sample. -/
theorem loss_row_apply (v20 v21 v24 v29 : Vec Ideal S256x2048 .f32) (b : Fin 256) :
    k0_pay3 v20 v21 v24 v29 (ix3 (0 : Fin 1) (0 : Fin 1) b)
      = ∑ r : Fin 2048, (0 - v29 (ix2 b r)) * Ideal.log (Ideal.div (v24 (ix2 b r)) (v20 (ix2 b r) + v21 (ix2 b r) + eps) + eps) := by
  unfold k0_pay3
  rw [shapeCast_self, shapeCast_self]
  rw [shapeCast_apply _ shapeCasts_S256_S1x1x256 (ix3 (0 : Fin 1) (0 : Fin 1) b) (ix1 b)
    (by rw [Shape.rowMajor_val_one, Shape.rowMajor_val_three]; show b.val = (0 * 1 + 0) * 256 + b.val; omega)]
  refine (Ideal.multiReduction_add_single _ 0x00000000#32 reduces_S256x2048_S256 _ _ (ix1 b)).trans ?_
  refine Finset.sum_congr rfl fun r _ => ?_
  have e : reduces_S256x2048_S256.lift (ix1 b) r = ix2 b r :=
    funext fun a => Fin.ext (by match a with | ⟨0, _⟩ => rfl | ⟨1, _⟩ => rfl)
  rw [e]
  show (Ideal.ofBits .f32 0x00000000#32 - v29 (ix2 b r)) * Ideal.log (Ideal.div (v24 (ix2 b r)) (v20 (ix2 b r) + v21 (ix2 b r) + eps) + eps) = _
  rw [Ideal.ofBits_zero_f32]

end Cert.KernelIdeal.Payload

end
-- ==== Proof.Accum.lean ====
/-
  What the carried block and the output block hold after each grid point, over the extended reals.

  Write A, s, E, T for the arrays as the kernel's region finds them (A and E computed by the host lines before it,
  s and T arguments).  Grid point t is class tile n = t / 16, contraction step k = t % 16.

  * After point t the carried 256-by-2048 block holds, at (b, r), the sum over steps k' ≤ k of step k''s
    contribution to row b of A against row (class r of tile n) of s: by induction on t, the first step of a tile
    starting from zero and every later step adding to what the point before left.
  * At a tile's last step (k = 15) these sixteen contributions are the whole contraction, so the row of 256 numbers
    written to the output block holds, at sample b, the sum over the tile's 2048 classes of the loss terms.
-/
import proofs.«100155_j16621523436027_2_alg».proof.Proof.Blocks
import proofs.«100155_j16621523436027_2_alg».proof.Proof.Payload

noncomputable section

open scoped BigOperators
open Idealize.ShloMosaic Idealize.ShloMosaic.TcCoe Idealize.SL.Sem

namespace Cert.KernelIdeal.Accum

open Cert.KernelIdeal Cert.KernelIdeal.Gen Idealize.ShloMosaic.ValueIdx Cert.Loss

variable (m : (ℓ : Loc nD τ sig) → Buf (Elt Ideal) ℓ)

/-- The left matrix, the right matrix, the exponentials and the targets, as the region finds them. -/
abbrev Aof (c : Dev nD) : Mat := V m c main_v7
abbrev Sof (c : Dev nD) : Sq := V m c main_arg2
abbrev Eof (c : Dev nD) : Mat := V m c main_v4
abbrev Tof (c : Dev nD) : Mat := V m c main_arg1

/-- The carried block after grid point `t`: the contributions of steps `0 … t % 16` of tile `t / 16`. -/
def running (c : Dev nD) (t : ℕ) : Vec Ideal S256x2048 .f32 := fun j =>
  ∑ k ∈ Finset.range (t % 16 + 1), stepDot (Aof m c) (Sof m c) (t / 16) k (j 0) (j 1)

/-- One accumulation step at point `t`, at an entry: what was there plus the step's contribution. -/
theorem step_entry (c : Dev nD) (t : Fin cfg0.N) (acc : Vec Ideal S256x2048 .f32) (b : Fin 256) (r : Fin 2048) :
    Pieces.step (grid0.coords t) (iblk m c 0 t) (iblk m c 1 t) acc (ix2 b r)
      = acc (ix2 b r) + stepDot (Aof m c) (Sof m c) (t.val / 16) (t.val % 16) b r := by
  refine (Payload.step_apply (Pieces.colSlice (grid0.coords t) (iblk m c 0 t)) (iblk m c 1 t) acc b r).trans ?_
  refine congrArg (acc (ix2 b r) + ·) (Finset.sum_congr rfl fun q _ => ?_)
  rw [Blocks.slice_apply m c t b q, Blocks.right_apply m c t r q]

/-- The carried block after the first step of a tile. -/
theorem snd_first (c : Dev nD) (t : Fin cfg0.N) (h0 : t.val % 16 = 0) (h1 : ¬t.val % 16 = 15) :
    (outsAt0 m c t.val t.isLt).2 = Pieces.step (grid0.coords t) (iblk m c 0 t) (iblk m c 1 t) (k0_pay1 (F := Ideal)) :=
  by
    rw [outsAt0_A m c t h0 h1]; dsimp only
    exact (Pieces.scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t))

/-- The carried block after a middle step. -/
theorem snd_middle (c : Dev nD) (t : Fin cfg0.N) (h0 : ¬t.val % 16 = 0) (h1 : ¬t.val % 16 = 15) :
    (outsAt0 m c t.val t.isLt).2 = Pieces.step (grid0.coords t) (iblk m c 0 t) (iblk m c 1 t)
      (outsAt0 m c (t.val - 1) (Nat.lt_of_le_of_lt (Nat.sub_le _ _) t.isLt)).2 :=
  by
    rw [outsAt0_B m c t h0 h1]; dsimp only
    exact (Pieces.scratch_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2)

/-- The carried block after the last step of a tile. -/
theorem snd_last (c : Dev nD) (t : Fin cfg0.N) (h0 : ¬t.val % 16 = 0) (h1 : t.val % 16 = 15) :
    (outsAt0 m c t.val t.isLt).2 = Pieces.step (grid0.coords t) (iblk m c 0 t) (iblk m c 1 t)
      (outsAt0 m c (t.val - 1) (Nat.lt_of_le_of_lt (Nat.sub_le _ _) t.isLt)).2 :=
  by
    rw [outsAt0_C m c t h0 h1]; dsimp only
    exact (Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2)

/-- The output block after the last step of a tile. -/
theorem fst_last (c : Dev nD) (t : Fin cfg0.N) (h0 : ¬t.val % 16 = 0) (h1 : t.val % 16 = 15) :
    (outsAt0 m c t.val t.isLt).1 = k0_pay3 (Pieces.step (grid0.coords t) (iblk m c 0 t) (iblk m c 1 t)
      (outsAt0 m c (t.val - 1) (Nat.lt_of_le_of_lt (Nat.sub_le _ _) t.isLt)).2) (iblk m c 2 t) (iblk m c 2 t) (iblk m c 3 t) :=
  by
    rw [outsAt0_C m c t h0 h1]; dsimp only
    exact (Pieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2)

/-- A later step extends the running sum by its own contribution. -/
theorem running_succ (c : Dev nD) (t : ℕ) (h0 : ¬t % 16 = 0) (b : Fin 256) (r : Fin 2048) :
    running m c (t - 1) (ix2 b r) + stepDot (Aof m c) (Sof m c) (t / 16) (t % 16) b r = running m c t (ix2 b r) := by
  have e1 : (t - 1) / 16 = t / 16 := by omega
  have e2 : (t - 1) % 16 + 1 = t % 16 := by omega
  show (∑ k ∈ Finset.range ((t - 1) % 16 + 1), stepDot (Aof m c) (Sof m c) ((t - 1) / 16) k b r) + _
    = ∑ k ∈ Finset.range (t % 16 + 1), stepDot (Aof m c) (Sof m c) (t / 16) k b r
  rw [e1, e2, Finset.sum_range_succ]

/-- THE INVARIANT: after grid point `t` the carried block is the running sum. -/
theorem carried_eq (c : Dev nD) : ∀ (t : ℕ) (ht : t < cfg0.N), (outsAt0 m c t ht).2 = running m c t
  | t, ht => by
    funext j
    obtain ⟨b, r, rfl⟩ : ∃ (b : Fin 256) (r : Fin 2048), j = ix2 b r := ⟨j 0, j 1, eq_ix2 j⟩
    by_cases h0 : t % 16 = 0
    · have h1 : ¬t % 16 = 15 := by omega
      rw [snd_first m c ⟨t, ht⟩ h0 h1, step_entry m c ⟨t, ht⟩, Payload.zero_block_apply, zero_add]
      show stepDot (Aof m c) (Sof m c) (t / 16) (t % 16) b r
        = ∑ k ∈ Finset.range (t % 16 + 1), stepDot (Aof m c) (Sof m c) (t / 16) k b r
      rw [h0, Finset.sum_range_one]
    · have hpos : 0 < t := Nat.pos_of_ne_zero (by rintro rfl; exact h0 rfl)
      have ih := carried_eq c (t - 1) (Nat.lt_of_le_of_lt (Nat.sub_le _ _) ht)
      by_cases h1 : t % 16 = 15
      · rw [snd_last m c ⟨t, ht⟩ h0 h1, step_entry m c ⟨t, ht⟩]
        show (outsAt0 m c (t - 1) _).2 (ix2 b r) + stepDot (Aof m c) (Sof m c) (t / 16) (t % 16) b r = _
        rw [ih]
        exact running_succ m c t h0 b r
      · rw [snd_middle m c ⟨t, ht⟩ h0 h1, step_entry m c ⟨t, ht⟩]
        show (outsAt0 m c (t - 1) _).2 (ix2 b r) + stepDot (Aof m c) (Sof m c) (t / 16) (t % 16) b r = _
        rw [ih]
        exact running_succ m c t h0 b r
  termination_by t => t
  decreasing_by all_goals omega

/-- At a tile's last step the running sum is the whole contraction. -/
theorem running_last (c : Dev nD) (t : ℕ) (h1 : t % 16 = 15) (b : Fin 256) (r : Fin 2048) :
    running m c t (ix2 b r) = dot (Aof m c) (Sof m c) b (clsAt (t / 16) r) := by
  show ∑ k ∈ Finset.range (t % 16 + 1), stepDot (Aof m c) (Sof m c) (t / 16) k b r = _
  rw [h1]
  exact sum_stepDot (Aof m c) (Sof m c) (t / 16) b r

/-- WHAT A TILE'S LAST STEP WRITES: at sample `b`, the tile's 2048 loss terms summed. -/
theorem out_entry (c : Dev nD) (t : Fin cfg0.N) (h1 : t.val % 16 = 15) (b : Fin 256) :
    (outsAt0 m c t.val t.isLt).1 (ix3 (0 : Fin 1) (0 : Fin 1) b)
      = ∑ r : Fin 2048, term Payload.eps (Aof m c) (Eof m c) (Tof m c) (Sof m c) b (clsAt (t.val / 16) r) := by
  have h0 : ¬t.val % 16 = 0 := by omega
  rw [fst_last m c t h0 h1, ← snd_last m c t h0 h1, carried_eq m c t.val t.isLt]
  refine (Payload.loss_row_apply (running m c t.val) (iblk m c 2 t) (iblk m c 2 t) (iblk m c 3 t) b).trans ?_
  refine Finset.sum_congr rfl fun r _ => ?_
  rw [running_last m c t.val h1 b r, Blocks.exp_apply m c t b r, Blocks.tgt_apply m c t b r]
  unfold term
  rw [sub_eq_add_neg, zero_add]

end Cert.KernelIdeal.Accum

end
-- ==== Proof.KernelValue.lean ====
/-
  The kernel's run, read: the array of partial losses after the region, and the mean the host lines form from it.

  The output array has one row of 256 numbers per class tile.  Tile n's row is written once, after the tile's
  last contraction step, and holds at sample b the tile's 2048 loss terms summed.  The four rows tile the array,
  so after the region the array is that function everywhere.  The host lines after the region drop the unit axis,
  add the four rows (per-sample losses), add the 256 samples and divide by 256.
-/
import proofs.«100155_j16621523436027_2_alg».proof.Proof.Accum
import Idealize.ShloMosaic.Lib.StableHlo.Run

noncomputable section

open scoped BigOperators
open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx Cert.Loss Cert.KernelIdeal.Accum

variable (m : (ℓ : Loc nD τ sig) → Buf (Elt Ideal) ℓ) (ρ : Dev nD → PrngReg)

/-- The array of partial losses: at (tile n, ·, sample b), tile n's loss terms of sample b summed. -/
def partials (c : Dev nD) : S4x1x256.Idx → EReal := fun i =>
  ∑ r : Fin 2048, term Payload.eps (Aof m c) (Eof m c) (Tof m c) (Sof m c) (i 2) (clsAt (i 0).val r)

/-- The output window is at block row n. -/
theorem index_out : ∀ t : Fin cfg0.N, win0_4.index t 0 = t.val / 16 ∧ win0_4.index t 1 = 0 ∧ win0_4.index t 2 = 0 :=
  (by decide +kernel : ∀ t : Fin grid0.N, win0_4.index t 0 = t.val / 16 ∧ win0_4.index t 1 = 0 ∧ win0_4.index t 2 = 0)

/-- What a writing point writes back is its block of `partials`. -/
theorem flushed_eq (c : Dev nD) (t : Fin cfg0.N) (hf : (cfg0.win 4).flush t = true) :
    (dats m 0 c).flushed 4 t = ((cfg0.win 4).blk t).view.read (Elt Ideal) (partials m c) := by
  have h1 : t.val % 16 = 15 := (flush0_4 t).mp hf
  have hi := index_out t
  have hN := Blocks.lt64 t
  show (cfg0.win 4).cut (grid0.coords t) ((dats m 0 c).after 4 t) = _
  rw [after0_4]
  funext j
  have hj0 : j 0 = (0 : Fin 1) := Fin.ext (by have : (j 0).val < 1 := (j 0).isLt; show (j 0).val = 0; omega)
  have hj1 : j 1 = (0 : Fin 1) := Fin.ext (by have : (j 1).val < 1 := (j 1).isLt; show (j 1).val = 0; omega)
  obtain ⟨b, rfl⟩ : ∃ b : Fin 256, j = ix3 (0 : Fin 1) (0 : Fin 1) b :=
    ⟨j 2, (eq_ix3 j).trans (by rw [hj0, hj1]; rfl)⟩
  rw [View.read_apply]
  show (outsAt0 m c t.val t.isLt).1 (ix3 (0 : Fin 1) (0 : Fin 1) b)
    = partials m c (((cfg0.win 4).blk t).view.emb (ix3 (0 : Fin 1) (0 : Fin 1) b))
  rw [out_entry m c t h1 b]
  have he : ((cfg0.win 4).blk t).view.emb (ix3 (0 : Fin 1) (0 : Fin 1) b)
      = ix3 (⟨t.val / 16, by omega⟩ : Fin 4) (0 : Fin 1) b := by
    funext a; apply Fin.ext
    match a with
    | ⟨0, _⟩ => show win0_4.index t 0 * 1 + 1 * 0 = t.val / 16; rw [hi.1]; omega
    | ⟨1, _⟩ => show win0_4.index t 1 * 1 + 1 * 0 = 0; rw [hi.2.1]
    | ⟨2, _⟩ => show win0_4.index t 2 * 256 + 1 * b.val = b.val; rw [hi.2.2]; omega
  rw [he]
  rfl

/-- An index of the array is in point `t`'s block iff each coordinate is in the block's range. -/
theorem mem_blk (t : Fin cfg0.N) (i : S4x1x256.Idx) :
    i ∈ ((cfg0.win 4).blk t).view.set ↔ ∀ a : Fin 3, win0_4.index t a * S1x1x256.size a ≤ (i a).val
      ∧ (i a).val < win0_4.index t a * S1x1x256.size a + S1x1x256.size a := by
  show i ∈ ((View.whole main_v8).slice (win0_4.rect t)).set ↔ _
  rw [View.set_slice_whole, Rect.mem_set_unit]
  exact Iff.rfl

/-- After the region the output array is `partials`: row n is covered by tile n's last point. -/
theorem final (c : Dev nD) : (dats m 0 c).arrAt 4 cfg0.N = partials m c :=
  (dats m 0 c).arrAt_eq_of_cover 4 (partials m c) (flushed_eq m c) fun i => by
    have hi0 : (i 0).val < 4 := (i 0).isLt
    have hi1 : (i 1).val < 1 := (i 1).isLt
    have hi2 : (i 2).val < 256 := (i 2).isLt
    have hN : cfg0.N = 64 := N_0
    have hlt : 16 * (i 0).val + 15 < cfg0.N := by omega
    have hx := index_out ⟨16 * (i 0).val + 15, hlt⟩
    refine ⟨⟨16 * (i 0).val + 15, hlt⟩, (flush0_4 _).mpr (by show (16 * (i 0).val + 15) % 16 = 15; omega), ?_⟩
    rw [mem_blk]
    intro a
    match a with
    | ⟨0, _⟩ =>
      show win0_4.index _ 0 * 1 ≤ (i 0).val ∧ (i 0).val < win0_4.index _ 0 * 1 + 1
      rw [hx.1]; show (16 * (i 0).val + 15) / 16 * 1 ≤ (i 0).val ∧ (i 0).val < (16 * (i 0).val + 15) / 16 * 1 + 1; omega
    | ⟨1, _⟩ =>
      show win0_4.index _ 1 * 1 ≤ (i 1).val ∧ (i 1).val < win0_4.index _ 1 * 1 + 1
      rw [hx.2.1]; omega
    | ⟨2, _⟩ =>
      show win0_4.index _ 2 * 256 ≤ (i 2).val ∧ (i 2).val < win0_4.index _ 2 * 256 + 256
      rw [hx.2.2]; omega

/-- The per-sample losses as the host lines form them: the unit axis dropped, the four rows added. -/
def tileSums (c : Dev nD) : FVec Ideal S256 .f32 :=
  Host.reduceAdd (F := Ideal) (shapeCast S4x256 (partials m c) shapeCasts_S4x1x256_S4x256)
    (constant (F := Ideal) S_ .f32 0x00000000#32) reducesTo_S4x256_S256_d0 h_S_

/-- The tile sums at sample `b`: zero plus the sample's loss (its terms summed tile by tile). -/
theorem tileSums_entry (c : Dev nD) (b : Fin 256) :
    tileSums m c (ix1 b) = 0 + rowLoss Payload.eps (Aof m c) (Eof m c) (Tof m c) (Sof m c) b := by
  have hR : S4x256.Reduces [0] S256 := by decide
  unfold tileSums
  simp only [Host.reduceAdd, Ideal.hostReduceAdd_def]
  rw [Ideal.hostReduceAdd_single reducesTo_S4x256_S256_d0 hR]
  show Ideal.ofBits .f32 0x00000000#32 + _ = _
  rw [Ideal.ofBits_zero_f32, ← rowLoss_tiles]
  refine congrArg (0 + ·) (Finset.sum_congr rfl fun (n : Fin 4) _ => ?_)
  have e : hR.lift (ix1 b) n = ix2 n b :=
    funext fun a => Fin.ext (by match a with | ⟨0, _⟩ => rfl | ⟨1, _⟩ => rfl)
  refine (congrArg (shapeCast S4x256 (partials m c) shapeCasts_S4x1x256_S4x256) e).trans ?_
  exact shapeCast_apply (partials m c) shapeCasts_S4x1x256_S4x256 (ix2 n b) (ix3 n (0 : Fin 1) b)
    (by rw [Shape.rowMajor_val_three, Shape.rowMajor_val_two]
        show (n.val * 1 + 0) * 256 + b.val = n.val * 256 + b.val; omega)

/-- The mean of 256 per-sample losses: their sum divided by 256. -/
def meanOf (L : FVec Ideal S256 .f32) : FVec Ideal S_ .f32 :=
  Host.divf (F := Ideal) (Host.reduceAdd (F := Ideal) L (constant (F := Ideal) S_ .f32 0x00000000#32) reducesTo_S256_S_d0 h_S_)
    (constant (F := Ideal) S_ .f32 0x43800000#32)

/-- The host lines after the region leave the mean of the tile sums in the result. -/
theorem tail_eq (c : Dev nD) :
    Pipeline.afterTail₀ cfgs (dats m) 0 (V0 m) [hostOps1] c main_v12 = meanOf (tileSums m c) := by
  unfold Pipeline.afterTail₀
  show StableHlo.after hostOps1 _ (Proc.devRef .tc main_v12) = _
  after_results
  have e : Pipeline.withArrays (cfgs 0).spec c (V0 m c) (fun w => (dats m 0 c).arrAt w (cfgs 0).N) (Proc.devRef .tc main_v8)
      = partials m c :=
    (Pipeline.withArrays_arr spec0 launch0.win.arr_inj c _ _ 4).trans (final m c)
  rw [e]
  rfl

/-- THE RUN, READ: every weakly fair execution ends with the result at the mean of the tile sums and the three
    argument arrays as they were. -/
theorem run : θ_run defs (onTc (τ := τ) (main (F := Ideal))) ⟨m, fun _ => 0, ρ⟩ fun r => ∀ c : Dev nD,
      r.2.mem ((c.tc : Thread nD τ).loc main_v12) = meanOf (tileSums m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v12 (Pipeline.mem_restRefs_of main_v12 (by decide) (by decide))).trans (tail_eq m c),
      ((h c).2 main_arg0 (Pipeline.mem_restRefs_of main_arg0 (by decide) (by decide))).trans (W_main_arg0 m (dats m) c),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c)))⟩)
    (run_main m ρ)

end Cert.KernelIdeal.Result

end
-- ==== Proof.RefImports.lean ====
/-
  The reference's generated run and its read-at-an-index lemmas, gathered under one import.
-/
import proofs.«100155_j16621523436027_2_alg».proof.Proof.Gen.ReferenceIdeal.Run
import proofs.«100155_j16621523436027_2_alg».proof.Proof.Gen.ReferenceIdeal.Read
-- ==== Proof.RefValue.lean ====
/-
  The reference, read as the loss of the specification.

  Stage by stage the reference computes, for sample b and class i, the contraction of row b of the left matrix with
  row i of s (s enters transposed, so the product's column i is s's row i), adds the exponential and ε, divides the
  exponential by that, adds ε, takes the logarithm and multiplies by the negated target; then it sums over the
  classes.  That is the specification's loss term and per-sample loss, with the left matrix and the exponentials
  the reference's own stages.
-/
import proofs.«100155_j16621523436027_2_alg».proof.Proof.RefImports
import proofs.«100155_j16621523436027_2_alg».proof.Proof.Spec

noncomputable section

open scoped BigOperators
open Idealize.ShloMosaic

namespace Cert.ReferenceIdeal.RefValue

open Cert.ReferenceIdeal Cert.ReferenceIdeal.Read Idealize.ShloMosaic.ValueIdx Cert.Loss

/-- The small positive constant added to the denominator and inside the logarithm. -/
abbrev eps : EReal := Ideal.ofBits .f32 0x358637BD#32

variable (x0 x1 : (⟨S256x8192, .f32⟩ : BufTy).Contents (Elt Ideal)) (x2 : (⟨S8192x8192, .f32⟩ : BufTy).Contents (Elt Ideal))

/-- The product stage at (b, i): row b of the left matrix against row i of s. -/
theorem product_entry (b : Fin 256) (i : Fin 8192) :
    val_main_v9 (F := Ideal) x0 x1 x2 (ix2 b i) = dot (val_main_v7 (F := Ideal) x0 x1) x2 b i := by
  rw [val_main_v9_apply]
  unfold dot
  refine Finset.sum_congr rfl fun k _ => ?_
  rw [val_main_v8_apply]
  have el : lidx_main_v9 (ix2 b i) k = ix2 b k :=
    funext fun a => Fin.ext (by match a with | ⟨0, _⟩ => rfl | ⟨1, _⟩ => rfl)
  have er : idx_main_v8 (ridx_main_v9 (ix2 b i) k) = ix2 i k :=
    funext fun a => Fin.ext (by match a with | ⟨0, _⟩ => rfl | ⟨1, _⟩ => rfl)
  rw [el, er]

/-- The stage before the class sum, at (b, i): the loss term. -/
theorem term_entry (b : Fin 256) (i : Fin 8192) :
    val_main_v18 (F := Ideal) x0 x1 x2 (ix2 b i)
      = term eps (val_main_v7 (F := Ideal) x0 x1) (val_main_v4 (F := Ideal) x0) x1 x2 b i := by
  rw [val_main_v18_apply, val_main_v14_apply, val_main_v17_apply, val_main_v16_apply, val_main_v13_apply,
    val_main_v12_apply, val_main_v10_apply, product_entry, val_main_v11_apply, val_main_v15_apply,
    val_main_cst_1_apply, val_main_cst_2_apply]
  simp only [Ideal.mulf_def, Ideal.hostNegf_def, Ideal.negf_def, Ideal.hostUnary_log_def, Ideal.addf_def,
    Ideal.hostDivf_def, Ideal.ofBits_def]
  rfl

/-- The per-sample stage at sample b: zero plus the loss of sample b. -/
theorem sample_entry (b : Fin 256) :
    val_main_v19 (F := Ideal) x0 x1 x2 (ix1 b)
      = 0 + rowLoss eps (val_main_v7 (F := Ideal) x0 x1) (val_main_v4 (F := Ideal) x0) x1 x2 b := by
  rw [val_main_v19_apply, val_main_cst_3_apply, Ideal.ofBits_def, Ideal.ofBits_zero_f32]
  refine congrArg (0 + ·) (Finset.sum_congr rfl fun k _ => ?_)
  have e : idx_main_v19 (ix1 b) k = ix2 b k :=
    funext fun a => Fin.ext (by match a with | ⟨0, _⟩ => rfl | ⟨1, _⟩ => rfl)
  rw [e, term_entry]

end Cert.ReferenceIdeal.RefValue

end
-- ==== Proof.Bridge.lean ====
/-
  The two sides are one function of the arguments.

  The kernel's host lines before its region compute the exponentials and the left matrix by the very operations
  the reference uses for its own stages, and the right matrix and the targets are arguments.  So the per-sample
  losses the kernel's host lines form — the sample's loss terms summed tile by tile — and the reference's — the
  same terms summed in one go — are the same numbers (a sum over 8192 classes split into 4 tiles of 2048), and both
  programs finish with the same mean of them.
-/
import proofs.«100155_j16621523436027_2_alg».proof.Proof.KernelValue
import proofs.«100155_j16621523436027_2_alg».proof.Proof.RefValue

noncomputable section

open Idealize.ShloMosaic Idealize.ShloMosaic.TcCoe Idealize.SL.Sem

namespace Cert.Proof.Bridge

open Cert.KernelIdeal Cert.KernelIdeal.Gen Idealize.ShloMosaic.ValueIdx Cert.Loss
open Cert.KernelIdeal.Accum Cert.KernelIdeal.Result

variable (m : (ℓ : Loc nD τ sig) → Buf (Elt Ideal) ℓ)

/-- The exponentials the region finds are the reference's stage of the first argument. -/
theorem exp_stage (c : Dev nD) :
    Eof m c = Cert.ReferenceIdeal.Read.val_main_v4 (F := Ideal) (m ((c.tc : Thread nD τ).loc main_arg0)) := by
  show StableHlo.after hostOps0 (fun b => m (c, b)) (Proc.devRef .tc main_v4) = _
  after_results
  rfl

/-- The left matrix the region finds is the reference's stage of the first two arguments. -/
theorem left_stage (c : Dev nD) :
    Aof m c = Cert.ReferenceIdeal.Read.val_main_v7 (F := Ideal) (m ((c.tc : Thread nD τ).loc main_arg0))
      (m ((c.tc : Thread nD τ).loc main_arg1)) := by
  show StableHlo.after hostOps0 (fun b => m (c, b)) (Proc.devRef .tc main_v7) = _
  after_results
  rfl

/-- The per-sample losses of the two programs agree. -/
theorem losses_eq (c : Dev nD) :
    tileSums m c = Cert.ReferenceIdeal.Read.val_main_v19 (F := Ideal) (m ((c.tc : Thread nD τ).loc main_arg0))
      (m ((c.tc : Thread nD τ).loc main_arg1)) (m ((c.tc : Thread nD τ).loc main_arg2)) := by
  funext j
  obtain ⟨b, rfl⟩ : ∃ b : Fin 256, j = ix1 b := ⟨j 0, eq_ix1 j⟩
  rw [tileSums_entry, Cert.ReferenceIdeal.RefValue.sample_entry, left_stage m c, exp_stage m c,
    show Tof m c = m ((c.tc : Thread nD τ).loc main_arg1) from V_main_arg1 m c,
    show Sof m c = m ((c.tc : Thread nD τ).loc main_arg2) from V_main_arg2 m c]

/-- So do the results: the same mean of the same per-sample losses. -/
theorem result_eq (c : Dev nD) :
    Cert.ReferenceIdeal.Read.val_main_v21 (F := Ideal) (m ((c.tc : Thread nD τ).loc main_arg0))
      (m ((c.tc : Thread nD τ).loc main_arg1)) (m ((c.tc : Thread nD τ).loc main_arg2)) = meanOf (tileSums m c) := by
  rw [losses_eq m c]
  rfl

end Cert.Proof.Bridge

end
-- ==== Proof.lean ====
/-
  The certificate of the tiled class-reweighted loss against its plain reference.

  Both programs first form, on the host, the row-shifted exponentials E = exp(x − rowmax x) and the left matrix
  A = (1 − T) · E.  The reference then takes, for sample b and class i,
      term b i = (−T(b, i)) · log( E(b, i) / (∑_j A(b, j) · s(i, j) + E(b, i) + ε) + ε ),
  sums over the 8192 classes, sums over the 256 samples and divides by 256.  The kernel walks a grid of 4 class
  tiles by 16 contraction steps: a carried 256-by-2048 block accumulates the contraction 512 columns at a time,
  the last step of a tile forms the tile's terms and sums them over the tile's 2048 classes into one row, and the
  host adds the four rows before the same two final lines.  Over the extended reals the two differ only by how
  two finite sums are grouped (16 × 512 = 8192 columns, 4 × 2048 = 8192 classes), which a commutative monoid
  does not see; the precondition is not used.

  The frames of the two kernel programs are the generated ones; the reference's frame is its generated run with
  the result dropped; the ideal pass rewrote nothing, so the preservation claim is trivial.
-/
import proofs.«100155_j16621523436027_2_alg».proof.Defs
import proofs.«100155_j16621523436027_2_alg».proof.Proof.Gen.Kernel
import proofs.«100155_j16621523436027_2_alg».proof.Proof.Gen.Kernel.Frame
import proofs.«100155_j16621523436027_2_alg».proof.Proof.Gen.KernelIdeal
import proofs.«100155_j16621523436027_2_alg».proof.Proof.Gen.KernelIdeal.Frame
import proofs.«100155_j16621523436027_2_alg».proof.Proof.Gen.ReferenceIdeal
import proofs.«100155_j16621523436027_2_alg».proof.Proof.Gen.Pre_finite_inputs
import proofs.«100155_j16621523436027_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end at the mean of the same per-sample losses. -/
theorem algebraic : Cert.algebraic_KernelIdeal_ReferenceIdeal := by
  intro m ρ m' ρ' _ hagree
  refine ⟨fun c => Cert.KernelIdeal.Result.meanOf (Cert.KernelIdeal.Result.tileSums m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2]
  exact Cert.Proof.Bridge.result_eq m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
